-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x64x56x56 : Shape := ⟨4, ![16, 64, 56, 56]⟩
abbrev S9x64 : Shape := ⟨2, ![9, 64]⟩
abbrev S64 : Shape := ⟨1, ![64]⟩
abbrev S_ : Shape := ⟨0, ![]⟩

class Facts : Prop where
  bcast_S_S16x64x56x56 : S_.BroadcastsInDim S16x64x56x56 (![] : Fin 0 → Fin S16x64x56x56.rank)
  reducesTo_S16x64x56x56_S_d0_1_2_3 : S16x64x56x56.ReducesTo [0, 1, 2, 3] S_
  h_S_ : 0 < S_.numel
  bcast_S_S9x64 : S_.BroadcastsInDim S9x64 (![] : Fin 0 → Fin S9x64.rank)
  reducesTo_S9x64_S_d0_1 : S9x64.ReducesTo [0, 1] S_
  bcast_S_S64 : S_.BroadcastsInDim S64 (![] : Fin 0 → Fin S64.rank)
  reducesTo_S64_S_d0 : S64.ReducesTo [0] S_

variable [Facts]

def fn {F : FTy → Type} [FloatOps F] (main_arg0 : FVec F S16x64x56x56 .f32) (main_arg1 : FVec F S9x64 .f32) (main_arg2 : FVec F S64 .f32) : IVec S_ 1 :=
  let main_v0 : FVec F S16x64x56x56 .f32 := Host.absf main_arg0
  let main_cst : FVec F S_ .f32 := constant S_ .f32 0x7F800000#32
  let main_v1 : FVec F S16x64x56x56 .f32 := broadcastInDim S16x64x56x56 ![] bcast_S_S16x64x56x56 main_cst
  let main_v2 : IVec S16x64x56x56 1 := cmpf .olt main_v0 main_v1
  let main_c : IVec S_ 1 := constantI S_ 1 1#1
  let main_v3 : IVec S_ 1 := (fun x v => Host.reduce IntOp.andi x v reducesTo_S16x64x56x56_S_d0_1_2_3 h_S_) main_v2 main_c
  let main_v4 : FVec F S9x64 .f32 := Host.absf main_arg1
  let main_cst_0 : FVec F S_ .f32 := constant S_ .f32 0x7F800000#32
  let main_v5 : FVec F S9x64 .f32 := broadcastInDim S9x64 ![] bcast_S_S9x64 main_cst_0
  let main_v6 : IVec S9x64 1 := cmpf .olt main_v4 main_v5
  let main_c_1 : IVec S_ 1 := constantI S_ 1 1#1
  let main_v7 : IVec S_ 1 := (fun x v => Host.reduce IntOp.andi x v reducesTo_S9x64_S_d0_1 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  main_v13
-- ==== Kernel.lean ====
abbrev S16x64x56x56 : Shape := ⟨4, ![16, 64, 56, 56]⟩
abbrev S9x64 : Shape := ⟨2, ![9, 64]⟩
abbrev S64 : Shape := ⟨1, ![64]⟩
abbrev S_ : Shape := ⟨0, ![]⟩
abbrev S16x64x58x58 : Shape := ⟨4, ![16, 64, 58, 58]⟩
abbrev S1024x58x58 : Shape := ⟨3, ![1024, 58, 58]⟩
abbrev S1x64 : Shape := ⟨2, ![1, 64]⟩
abbrev S1024x1568x128 : Shape := ⟨3, ![1024, 1568, 128]⟩
abbrev S8x58x58 : Shape := ⟨3, ![8, 58, 58]⟩
abbrev S8x1568x128 : Shape := ⟨3, ![8, 1568, 128]⟩
abbrev S8x56x56 : Shape := ⟨3, ![8, 56, 56]⟩
abbrev S8x56x56x1 : Shape := ⟨4, ![8, 56, 56, 1]⟩
abbrev S8x56x56x9 : Shape := ⟨4, ![8, 56, 56, 9]⟩
abbrev S25088x9 : Shape := ⟨2, ![25088, 9]⟩
abbrev S25088x64 : Shape := ⟨2, ![25088, 64]⟩
abbrev S16x64x3136x64 : Shape := ⟨4, ![16, 64, 3136, 64]⟩

abbrev nBuf : Space → Nat
  | .hbm => 10
  | .vmem => 6
  | .smem => 0
  | _ => 0

abbrev bufTy : (tb : Table) → Fin (tcTables nBuf tb) → BufTy
  | .hbm, ⟨0, _⟩ => ⟨S16x64x56x56, .f32⟩
  | .hbm, ⟨1, _⟩ => ⟨S9x64, .f32⟩
  | .hbm, ⟨2, _⟩ => ⟨S64, .f32⟩
  | .hbm, ⟨3, _⟩ => ⟨S_, .i32⟩
  | .hbm, ⟨4, _⟩ => ⟨S_, .f32⟩
  | .hbm, ⟨5, _⟩ => ⟨S16x64x58x58, .f32⟩
  | .hbm, ⟨6, _⟩ => ⟨S1024x58x58, .f32⟩
  | .hbm, ⟨7, _⟩ => ⟨S1x64, .f32⟩
  | .hbm, ⟨8, _⟩ => ⟨S1024x1568x128, .f32⟩
  | .hbm, ⟨9, _⟩ => ⟨S16x64x3136x64, .f32⟩
  | .local _ .vmem, ⟨0, _⟩ => ⟨S8x58x58, .f32⟩
  | .local _ .vmem, ⟨1, _⟩ => ⟨S8x58x58, .f32⟩
  | .local _ .vmem, ⟨2, _⟩ => ⟨S9x64, .f32⟩
  | .local _ .vmem, ⟨3, _⟩ => ⟨S1x64, .f32⟩
  | .local _ .vmem, ⟨4, _⟩ => ⟨S8x1568x128, .f32⟩
  | .local _ .vmem, ⟨5, _⟩ => ⟨S8x1568x128, .f32⟩
  | _, _ => ⟨S16x64x56x56, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![128], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S8x58x58 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S9x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S8x1568x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  pads_S16x64x56x56_S16x64x58x58_000_000_110_110 : S16x64x56x56.Pads (![0, 0, 1, 1] : Fin 4 → Nat) ![0, 0, 1, 1] ![0, 0, 0, 0] S16x64x58x58
  h_S_ : 0 < S_.numel
  shapeCasts_S16x64x58x58_S1024x58x58 : S16x64x58x58.ShapeCasts S1024x58x58
  shapeCasts_S64_S1x64 : S64.ShapeCasts S1x64
  inb_S9x64_S9x64_0_0 : ∀ a, (![0, 0] : Fin 2 → Nat) a + S9x64.size a ≤ S9x64.size a
  h_S9x64 : 0 < S9x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  inb_S8x58x58_S8x56x56_0_0_0 : ∀ a, (![0, 0, 0] : Fin 3 → Nat) a + S8x56x56.size a ≤ S8x58x58.size a
  h_S8x56x56 : 0 < S8x56x56.numel
  shapeCasts_S8x56x56_S8x56x56 : S8x56x56.ShapeCasts S8x56x56
  inb_S8x58x58_S8x56x56_0_0_1 : ∀ a, (![0, 0, 1] : Fin 3 → Nat) a + S8x56x56.size a ≤ S8x58x58.size a
  inb_S8x58x58_S8x56x56_0_0_2 : ∀ a, (![0, 0, 2] : Fin 3 → Nat) a + S8x56x56.size a ≤ S8x58x58.size a
  inb_S8x58x58_S8x56x56_0_1_0 : ∀ a, (![0, 1, 0] : Fin 3 → Nat) a + S8x56x56.size a ≤ S8x58x58.size a
  inb_S8x58x58_S8x56x56_0_1_1 : ∀ a, (![0, 1, 1] : Fin 3 → Nat) a + S8x56x56.size a ≤ S8x58x58.size a
  inb_S8x58x58_S8x56x56_0_1_2 : ∀ a, (![0, 1, 2] : Fin 3 → Nat) a + S8x56x56.size a ≤ S8x58x58.size a
  inb_S8x58x58_S8x56x56_0_2_0 : ∀ a, (![0, 2, 0] : Fin 3 → Nat) a + S8x56x56.size a ≤ S8x58x58.size a
  inb_S8x58x58_S8x56x56_0_2_1 : ∀ a, (![0, 2, 1] : Fin 3 → Nat) a + S8x56x56.size a ≤ S8x58x58.size a
  inb_S8x58x58_S8x56x56_0_2_2 : ∀ a, (![0, 2, 2] : Fin 3 → Nat) a + S8x56x56.size a ≤ S8x58x58.size a
  shapeCasts_S8x56x56_S8x56x56x1 : S8x56x56.ShapeCasts S8x56x56x1
  concatenates_S8x56x56x1_S8x56x56x1_S8x56x56x1_S8x56x56x1_S8x56x56x1_S8x56x56x1_S8x56x56x1_S8x56x56x1_S8x56x56x1_S8x56x56x9_d3 : Shape.Concatenates [S8x56x56x1, S8x56x56x1, S8x56x56x1, S8x56x56x1, S8x56x56x1, S8x56x56x1, S8x56x56x1, S8x56x56x1, S8x56x56x1] S8x56x56x9 3
  shapeCasts_S8x56x56x9_S25088x9 : S8x56x56x9.ShapeCasts S25088x9
  broadcasts_S1x64_S25088x64 : S1x64.Broadcasts S25088x64
  shapeCasts_S25088x64_S8x1568x128 : S25088x64.ShapeCasts S8x1568x128
  inb_S8x1568x128_S8x1568x128_0_0_0 : ∀ a, (![0, 0, 0] : Fin 3 → Nat) a + S8x1568x128.size a ≤ S8x1568x128.size a
  h_S8x1568x128 : 0 < S8x1568x128.numel
  shapeCasts_S1024x1568x128_S16x64x3136x64 : S1024x1568x128.ShapeCasts S16x64x3136x64
  dot_S25088x9_S9x64_S25088x64_1_0_0_1_n_n_wf : DotDims.WF S25088x9 S9x64 S25088x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x58x58.size a ≤ S1024x58x58.size a
  hwx0_0 : ∀ i : grid0.Coords, EltTy.bits .f32 = 32 ∨ (Rect.block (s := S1024x58x58) S8x58x58.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S9x64.size a ≤ S9x64.size a
  hwx0_1 : ∀ i : grid0.Coords, EltTy.bits .f32 = 32 ∨ (Rect.block (s := S9x64) S9x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8x1568x128.size a ≤ S1024x1568x128.size a
  hwx0_3 : ∀ i : grid0.Coords, EltTy.bits .f32 = 32 ∨ (Rect.block (s := S1024x1568x128) S8x1568x128.size (cc0_transform_3 i) (hinb0_3 i)).WholeWords (EltTy.packing .f32)

variable [Facts₀]

def dot_S25088x9_S9x64_S25088x64_1_0_0_1_n_n : DotDims S25088x9 S9x64 S25088x64 where
  lhsContracting := [1]
  rhsContracting := [0]
  lhsNonContracting := [0]
  rhsNonContracting := [1]
  lhsBatch := []
  rhsBatch := []
  wf := dot_S25088x9_S9x64_S25088x64_1_0_0_1_n_n_wf

abbrev win0_0 : Pipeline.Window sig grid0 :=
  Pipeline.Window.ofSpec (Memref.whole main_v1) S8x58x58.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S9x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S8x1568x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S16x64x56x56 : Shape := ⟨4, ![16, 64, 56, 56]⟩
abbrev S9x64 : Shape := ⟨2, ![9, 64]⟩
abbrev S64 : Shape := ⟨1, ![64]⟩
abbrev S_ : Shape := ⟨0, ![]⟩
abbrev S16x64x58x58 : Shape := ⟨4, ![16, 64, 58, 58]⟩
abbrev S16x64x56x56x1 : Shape := ⟨5, ![16, 64, 56, 56, 1]⟩
abbrev S16x64x56x56x9 : Shape := ⟨5, ![16, 64, 56, 56, 9]⟩
abbrev S16x64x3136x9 : Shape := ⟨4, ![16, 64, 3136, 9]⟩
abbrev S16x64x3136x64 : Shape := ⟨4, ![16, 64, 3136, 64]⟩
abbrev S1x1x1x64 : Shape := ⟨4, ![1, 1, 1, 64]⟩

abbrev nBuf : Space → Nat
  | .hbm => 30
  | .vmem => 0
  | .smem => 0
  | _ => 0

abbrev bufTy : (tb : Table) → Fin (tcTables nBuf tb) → BufTy
  | .hbm, ⟨0, _⟩ => ⟨S16x64x56x56, .f32⟩
  | .hbm, ⟨1, _⟩ => ⟨S9x64, .f32⟩
  | .hbm, ⟨2, _⟩ => ⟨S64, .f32⟩
  | .hbm, ⟨3, _⟩ => ⟨S_, .i32⟩
  | .hbm, ⟨4, _⟩ => ⟨S_, .f32⟩
  | .hbm, ⟨5, _⟩ => ⟨S16x64x58x58, .f32⟩
  | .hbm, ⟨6, _⟩ => ⟨S16x64x56x56, .f32⟩
  | .hbm, ⟨7, _⟩ => ⟨S16x64x56x56, .f32⟩
  | .hbm, ⟨8, _⟩ => ⟨S16x64x56x56, .f32⟩
  | .hbm, ⟨9, _⟩ => ⟨S16x64x56x56, .f32⟩
  | .hbm, ⟨10, _⟩ => ⟨S16x64x56x56, .f32⟩
  | .hbm, ⟨11, _⟩ => ⟨S16x64x56x56, .f32⟩
  | .hbm, ⟨12, _⟩ => ⟨S16x64x56x56, .f32⟩
  | .hbm, ⟨13, _⟩ => ⟨S16x64x56x56, .f32⟩
  | .hbm, ⟨14, _⟩ => ⟨S16x64x56x56, .f32⟩
  | .hbm, ⟨15, _⟩ => ⟨S16x64x56x56x1, .f32⟩
  | .hbm, ⟨16, _⟩ => ⟨S16x64x56x56x1, .f32⟩
  | .hbm, ⟨17, _⟩ => ⟨S16x64x56x56x1, .f32⟩
  | .hbm, ⟨18, _⟩ => ⟨S16x64x56x56x1, .f32⟩
  | .hbm, ⟨19, _⟩ => ⟨S16x64x56x56x1, .f32⟩
  | .hbm, ⟨20, _⟩ => ⟨S16x64x56x56x1, .f32⟩
  | .hbm, ⟨21, _⟩ => ⟨S16x64x56x56x1, .f32⟩
  | .hbm, ⟨22, _⟩ => ⟨S16x64x56x56x1, .f32⟩
  | .hbm, ⟨23, _⟩ => ⟨S16x64x56x56x1, .f32⟩
  | .hbm, ⟨24, _⟩ => ⟨S16x64x56x56x9, .f32⟩
  | .hbm, ⟨25, _⟩ => ⟨S16x64x3136x9, .f32⟩
  | .hbm, ⟨26, _⟩ => ⟨S16x64x3136x64, .f32⟩
  | .hbm, ⟨27, _⟩ => ⟨S1x1x1x64, .f32⟩
  | .hbm, ⟨28, _⟩ => ⟨S16x64x3136x64, .f32⟩
  | .hbm, ⟨29, _⟩ => ⟨S16x64x3136x64, .f32⟩
  | _, _ => ⟨S16x64x56x56, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩

abbrev nD : Nat := 1
abbrev τ : Topo := Topo.v7x

variable {F : FTy → Type} [FloatOps F]

class Facts₀ : Prop where
  pads_S16x64x56x56_S16x64x58x58_000_000_110_110 : S16x64x56x56.Pads (![0, 0, 1, 1] : Fin 4 → Nat) ![0, 0, 1, 1] ![0, 0, 0, 0] S16x64x58x58
  h_S_ : 0 < S_.numel
  slices_S16x64x58x58_S16x64x56x56_0_0_0_0 : S16x64x58x58.Slices ![0, 0, 0, 0] S16x64x56x56
  slices_S16x64x58x58_S16x64x56x56_0_0_0_1 : S16x64x58x58.Slices ![0, 0, 0, 1] S16x64x56x56
  slices_S16x64x58x58_S16x64x56x56_0_0_0_2 : S16x64x58x58.Slices ![0, 0, 0, 2] S16x64x56x56
  slices_S16x64x58x58_S16x64x56x56_0_0_1_0 : S16x64x58x58.Slices ![0, 0, 1, 0] S16x64x56x56
  slices_S16x64x58x58_S16x64x56x56_0_0_1_1 : S16x64x58x58.Slices ![0, 0, 1, 1] S16x64x56x56
  slices_S16x64x58x58_S16x64x56x56_0_0_1_2 : S16x64x58x58.Slices ![0, 0, 1, 2] S16x64x56x56
  slices_S16x64x58x58_S16x64x56x56_0_0_2_0 : S16x64x58x58.Slices ![0, 0, 2, 0] S16x64x56x56
  slices_S16x64x58x58_S16x64x56x56_0_0_2_1 : S16x64x58x58.Slices ![0, 0, 2, 1] S16x64x56x56
  slices_S16x64x58x58_S16x64x56x56_0_0_2_2 : S16x64x58x58.Slices ![0, 0, 2, 2] S16x64x56x56
  bcast_S16x64x56x56_S16x64x56x56x1_0_1_2_3 : S16x64x56x56.BroadcastsInDim S16x64x56x56x1 (![0, 1, 2, 3] : Fin 4 → Fin S16x64x56x56x1.rank)
  concatenates_S16x64x56x56x1_S16x64x56x56x1_S16x64x56x56x1_S16x64x56x56x1_S16x64x56x56x1_S16x64x56x56x1_S16x64x56x56x1_S16x64x56x56x1_S16x64x56x56x1_S16x64x56x56x9_d4 : Shape.Concatenates [S16x64x56x56x1, S16x64x56x56x1, S16x64x56x56x1, S16x64x56x56x1, S16x64x56x56x1, S16x64x56x56x1, S16x64x56x56x1, S16x64x56x56x1, S16x64x56x56x1] S16x64x56x56x9 4
  shapeCasts_S16x64x56x56x9_S16x64x3136x9 : S16x64x56x56x9.ShapeCasts S16x64x3136x9
  bcast_S64_S1x1x1x64_3 : S64.BroadcastsInDim S1x1x1x64 (![3] : Fin 1 → Fin S1x1x1x64.rank)
  bcast_S1x1x1x64_S16x64x3136x64_0_1_2_3 : S1x1x1x64.BroadcastsInDim S16x64x3136x64 (![0, 1, 2, 3] : Fin 4 → Fin S16x64x3136x64.rank)
  dot_S16x64x3136x9_S9x64_S16x64x3136x64_3_0_012_1_n_n_wf : DotDims.WF S16x64x3136x9 S9x64 S16x64x3136x64 [3] [0] [0, 1, 2] [1] [] []

variable [Facts₀]

def dot_S16x64x3136x9_S9x64_S16x64x3136x64_3_0_012_1_n_n : DotDims S16x64x3136x9 S9x64 S16x64x3136x64 where
  lhsContracting := [3]
  rhsContracting := [0]
  lhsNonContracting := [0, 1, 2]
  rhsNonContracting := [1]
  lhsBatch := []
  rhsBatch := []
  wf := dot_S16x64x3136x9_S9x64_S16x64x3136x64_3_0_012_1_n_n_wf

class Facts : Prop extends Facts₀ where

variable [Facts]
-- ==== Proof.Body.lean ====
/-
  What the kernel's body leaves in its output block, entry by entry.

  At one grid point the body holds eight padded images x0 [8, 58, 58], the weights x1 [9, 64] and the bias as a row
  x2 [1, 64]. It loads the nine windows of x0 shifted down by k / 3 and right by k % 3 (k = 0, …, 8), gives each a
  trailing unit axis and joins them along it: entry (a, h, w, k) of the joined array is x0[a, h + k / 3, w + k % 3]. The
  joined array is regrouped to a matrix with one row per (image, position) — row a · 3136 + s for position
  s = h · 56 + w — and nine columns, multiplied by the weights into a zero accumulator, and the bias row is added to
  every row. The [25088, 64] result is regrouped row-major to [8, 1568, 128]: entry (a, q, l) of the block is entry
  (a · 3136 + 2 q + l / 64, l % 64) of the matrix, so lane l of row q holds position 2 q + l / 64 and channel l % 64.
  Hence the block at (a, q, l) is Σ_k x0[a, s / 56 + k / 3, s % 56 + k % 3] · x1[k, l % 64] + x2[0, l % 64] with
  s = 2 q + l / 64 (`block_apply`).
-/
import proofs.«172149_j46059229282884_2_alg».proof.Proof.Gen.KernelIdeal.Frame
import Idealize.ShloMosaic.Lib.Pipeline.Value
import Idealize.ShloMosaic.Lib.ValueIdx
import Idealize.ShloMosaic.PureOps.Ideal.Laws

noncomputable section

open scoped BigOperators

namespace Cert.PatchLinear.Body

open Cert.KernelIdeal Cert.KernelIdeal.Gen Idealize.ShloMosaic Idealize.ShloMosaic.ValueIdx

theorem zeros2 : (![0, 0] : Fin 2 → Nat) = fun _ => 0 := funext fun a => by fin_cases a <;> rfl
theorem zeros3 : (![0, 0, 0] : Fin 3 → Nat) = fun _ => 0 := funext fun a => by fin_cases a <;> rfl

/-- A trailing unit axis added to an [8, 56, 56] array: entry (a, r, s, 0) is entry (a, r, s). -/
theorem addUnit_apply (X : S8x56x56.Idx → EReal) (h : S8x56x56.ShapeCasts S8x56x56x1) (a : Fin 8) (r s : Fin 56) (z : Fin 1) :
    shapeCast S8x56x56x1 X h (ix4 a r s z) = X (ix3 a r s) := by
  refine shapeCast_apply X h _ _ ?_
  rw [Shape.rowMajor_val_three, Shape.rowMajor_val_four]
  show (a.val * 56 + r.val) * 56 + s.val = ((a.val * 56 + r.val) * 56 + s.val) * 1 + z.val
  have := z.isLt; omega

/-- A window cast to its own shape and given a trailing unit axis: entry (a, r, s, 0) is the window's entry (a, r, s). -/
theorem window_apply (X : S8x56x56.Idx → EReal) (h1 : S8x56x56.ShapeCasts S8x56x56) (h2 : S8x56x56.ShapeCasts S8x56x56x1)
    (a : Fin 8) (r s : Fin 56) (z : Fin 1) :
    shapeCast S8x56x56x1 (shapeCast S8x56x56 X h1) h2 (ix4 a r s z) = X (ix3 a r s) :=
  (addUnit_apply _ h2 a r s z).trans (congrFun (shapeCast_self X h1) _)

/-- The nine shifted windows of the eight padded images, each with its trailing unit axis, as a family over the tap. -/
def windows (x0 : Vec Ideal S8x58x58 .f32) : Fin 9 → (S8x56x56x1.Idx → EReal)
  | ⟨0, _⟩ => k0_pay5 (F := Ideal) (View.ld x0 r0_2)
  | ⟨1, _⟩ => k0_pay6 (F := Ideal) (View.ld x0 r0_3)
  | ⟨2, _⟩ => k0_pay7 (F := Ideal) (View.ld x0 r0_4)
  | ⟨3, _⟩ => k0_pay8 (F := Ideal) (View.ld x0 r0_5)
  | ⟨4, _⟩ => k0_pay9 (F := Ideal) (View.ld x0 r0_6)
  | ⟨5, _⟩ => k0_pay10 (F := Ideal) (View.ld x0 r0_7)
  | ⟨6, _⟩ => k0_pay11 (F := Ideal) (View.ld x0 r0_8)
  | ⟨7, _⟩ => shapeCast S8x56x56x1 (k0_pay3 (F := Ideal) (View.ld x0 r0_9)) shapeCasts_S8x56x56_S8x56x56x1
  | ⟨8, _⟩ => shapeCast S8x56x56x1 (k0_pay4 (F := Ideal) (View.ld x0 r0_10)) shapeCasts_S8x56x56_S8x56x56x1
  | ⟨_ + 9, h⟩ => absurd h (Nat.not_lt.2 (Nat.le_add_left _ _))

/-- Window `k` at (a, r, s) is the padded pixel of image `a` at (r + k / 3, s + k % 3). -/
theorem windows_apply (x0 : Vec Ideal S8x58x58 .f32) (k : Fin 9) (a : Fin 8) (r s : Fin 56) (z : Fin 1) :
    windows x0 k (ix4 a r s z)
      = x0 (ix3 a (⟨r.val + k.val / 3, by have := r.isLt; have := k.isLt; omega⟩ : Fin 58)
          (⟨s.val + k.val % 3, by have := s.isLt; have := k.isLt; omega⟩ : Fin 58)) := by
  match k with
  | ⟨0, _⟩ =>
    show shapeCast S8x56x56x1 (shapeCast S8x56x56 (View.ld x0 r0_2) shapeCasts_S8x56x56_S8x56x56) shapeCasts_S8x56x56_S8x56x56x1 (ix4 a r s z) = _
    refine (window_apply (View.ld x0 r0_2) _ _ a r s z).trans (congrArg x0 (funext fun b => Fin.ext ?_))
    match b with
    | ⟨0, _⟩ => show 0 + 1 * a.val = a.val; omega
    | ⟨1, _⟩ => show 0 + 1 * r.val = r.val + 0 / 3; omega
    | ⟨2, _⟩ => show 0 + 1 * s.val = s.val + 0 % 3; omega
  | ⟨1, _⟩ =>
    show shapeCast S8x56x56x1 (shapeCast S8x56x56 (View.ld x0 r0_3) shapeCasts_S8x56x56_S8x56x56) shapeCasts_S8x56x56_S8x56x56x1 (ix4 a r s z) = _
    refine (window_apply (View.ld x0 r0_3) _ _ a r s z).trans (congrArg x0 (funext fun b => Fin.ext ?_))
    match b with
    | ⟨0, _⟩ => show 0 + 1 * a.val = a.val; omega
    | ⟨1, _⟩ => show 0 + 1 * r.val = r.val + 1 / 3; omega
    | ⟨2, _⟩ => show 1 + 1 * s.val = s.val + 1 % 3; omega
  | ⟨2, _⟩ =>
    show shapeCast S8x56x56x1 (shapeCast S8x56x56 (View.ld x0 r0_4) shapeCasts_S8x56x56_S8x56x56) shapeCasts_S8x56x56_S8x56x56x1 (ix4 a r s z) = _
    refine (window_apply (View.ld x0 r0_4) _ _ a r s z).trans (congrArg x0 (funext fun b => Fin.ext ?_))
    match b with
    | ⟨0, _⟩ => show 0 + 1 * a.val = a.val; omega
    | ⟨1, _⟩ => show 0 + 1 * r.val = r.val + 2 / 3; omega
    | ⟨2, _⟩ => show 2 + 1 * s.val = s.val + 2 % 3; omega
  | ⟨3, _⟩ =>
    show shapeCast S8x56x56x1 (shapeCast S8x56x56 (View.ld x0 r0_5) shapeCasts_S8x56x56_S8x56x56) shapeCasts_S8x56x56_S8x56x56x1 (ix4 a r s z) = _
    refine (window_apply (View.ld x0 r0_5) _ _ a r s z).trans (congrArg x0 (funext fun b => Fin.ext ?_))
    match b with
    | ⟨0, _⟩ => show 0 + 1 * a.val = a.val; omega
    | ⟨1, _⟩ => show 1 + 1 * r.val = r.val + 3 / 3; omega
    | ⟨2, _⟩ => show 0 + 1 * s.val = s.val + 3 % 3; omega
  | ⟨4, _⟩ =>
    show shapeCast S8x56x56x1 (shapeCast S8x56x56 (View.ld x0 r0_6) shapeCasts_S8x56x56_S8x56x56) shapeCasts_S8x56x56_S8x56x56x1 (ix4 a r s z) = _
    refine (window_apply (View.ld x0 r0_6) _ _ a r s z).trans (congrArg x0 (funext fun b => Fin.ext ?_))
    match b with
    | ⟨0, _⟩ => show 0 + 1 * a.val = a.val; omega
    | ⟨1, _⟩ => show 1 + 1 * r.val = r.val + 4 / 3; omega
    | ⟨2, _⟩ => show 1 + 1 * s.val = s.val + 4 % 3; omega
  | ⟨5, _⟩ =>
    show shapeCast S8x56x56x1 (shapeCast S8x56x56 (View.ld x0 r0_7) shapeCasts_S8x56x56_S8x56x56) shapeCasts_S8x56x56_S8x56x56x1 (ix4 a r s z) = _
    refine (window_apply (View.ld x0 r0_7) _ _ a r s z).trans (congrArg x0 (funext fun b => Fin.ext ?_))
    match b with
    | ⟨0, _⟩ => show 0 + 1 * a.val = a.val; omega
    | ⟨1, _⟩ => show 1 + 1 * r.val = r.val + 5 / 3; omega
    | ⟨2, _⟩ => show 2 + 1 * s.val = s.val + 5 % 3; omega
  | ⟨6, _⟩ =>
    show shapeCast S8x56x56x1 (shapeCast S8x56x56 (View.ld x0 r0_8) shapeCasts_S8x56x56_S8x56x56) shapeCasts_S8x56x56_S8x56x56x1 (ix4 a r s z) = _
    refine (window_apply (View.ld x0 r0_8) _ _ a r s z).trans (congrArg x0 (funext fun b => Fin.ext ?_))
    match b with
    | ⟨0, _⟩ => show 0 + 1 * a.val = a.val; omega
    | ⟨1, _⟩ => show 2 + 1 * r.val = r.val + 6 / 3; omega
    | ⟨2, _⟩ => show 0 + 1 * s.val = s.val + 6 % 3; omega
  | ⟨7, _⟩ =>
    show shapeCast S8x56x56x1 (shapeCast S8x56x56 (View.ld x0 r0_9) shapeCasts_S8x56x56_S8x56x56) shapeCasts_S8x56x56_S8x56x56x1 (ix4 a r s z) = _
    refine (window_apply (View.ld x0 r0_9) _ _ a r s z).trans (congrArg x0 (funext fun b => Fin.ext ?_))
    match b with
    | ⟨0, _⟩ => show 0 + 1 * a.val = a.val; omega
    | ⟨1, _⟩ => show 2 + 1 * r.val = r.val + 7 / 3; omega
    | ⟨2, _⟩ => show 1 + 1 * s.val = s.val + 7 % 3; omega
  | ⟨8, _⟩ =>
    show shapeCast S8x56x56x1 (shapeCast S8x56x56 (View.ld x0 r0_10) shapeCasts_S8x56x56_S8x56x56) shapeCasts_S8x56x56_S8x56x56x1 (ix4 a r s z) = _
    refine (window_apply (View.ld x0 r0_10) _ _ a r s z).trans (congrArg x0 (funext fun b => Fin.ext ?_))
    match b with
    | ⟨0, _⟩ => show 0 + 1 * a.val = a.val; omega
    | ⟨1, _⟩ => show 2 + 1 * r.val = r.val + 8 / 3; omega
    | ⟨2, _⟩ => show 2 + 1 * s.val = s.val + 8 % 3; omega
  | ⟨_ + 9, hk⟩ => exact absurd hk (Nat.not_lt.2 (Nat.le_add_left _ _))

/-- The matrix of patches: one row per (image, position), the nine taps in its columns. -/
def patchRows (x0 : Vec Ideal S8x58x58 .f32) : FVec Ideal S25088x9 .f32 :=
  shapeCast S25088x9
    (concatenate S8x56x56x9 3 (List.ofFn fun n : Fin 9 => (⟨S8x56x56x1, windows x0 n⟩ : (s : Shape) × (s.Idx → EReal))) concatenates_S8x56x56x1_S8x56x56x1_S8x56x56x1_S8x56x56x1_S8x56x56x1_S8x56x56x1_S8x56x56x1_S8x56x56x1_S8x56x56x1_S8x56x56x9_d3)
    shapeCasts_S8x56x56x9_S25088x9

/-- Row a · 3136 + s of the matrix of patches, column k: tap k of the window at position s of image a. -/
theorem patchRows_apply (x0 : Vec Ideal S8x58x58 .f32) (a : Fin 8) (s : Fin 3136) (k : Fin 9) (row : Fin 25088)
    (hrow : row.val = a.val * 3136 + s.val) :
    patchRows x0 (ix2 row k)
      = x0 (ix3 a (⟨s.val / 56 + k.val / 3, by have := s.isLt; have := k.isLt; omega⟩ : Fin 58)
          (⟨s.val % 56 + k.val % 3, by have := k.isLt; omega⟩ : Fin 58)) := by
  have ha := a.isLt; have hs := s.isLt; have hk := k.isLt
  unfold patchRows
  refine (shapeCast_apply _ shapeCasts_S8x56x56x9_S25088x9 (ix2 row k)
    (ix4 a (⟨s.val / 56, by omega⟩ : Fin 56) (⟨s.val % 56, by omega⟩ : Fin 56) k) ?_).trans ?_
  · rw [Shape.rowMajor_val_four, Shape.rowMajor_val_two]
    show ((a.val * 56 + s.val / 56) * 56 + s.val % 56) * 9 + k.val = row.val * 9 + k.val
    omega
  · refine (concatenate_ofFn_unit_apply (3 : Fin S8x56x56x9.rank) (windows x0) _ rfl rfl
      (ix4 a (⟨s.val / 56, by omega⟩ : Fin 56) (⟨s.val % 56, by omega⟩ : Fin 56) k) k rfl
      (ix4 a (⟨s.val / 56, by omega⟩ : Fin 56) (⟨s.val % 56, by omega⟩ : Fin 56) (⟨0, Nat.one_pos⟩ : Fin 1))
      (fun b hb => by
        match b with
        | ⟨0, _⟩ => rfl
        | ⟨1, _⟩ => rfl
        | ⟨2, _⟩ => rfl
        | ⟨3, _⟩ => exact absurd rfl hb)).trans ?_
    exact windows_apply x0 k a _ _ _

/-- The body's output block as one term of its three input blocks: the patches times the weights into a zero
    accumulator, plus the bias row laid along every row, regrouped to [8, 1568, 128]. -/
theorem block_eq (x0 : Vec Ideal S8x58x58 .f32) (x1 : Vec Ideal S9x64 .f32) (x2 : Vec Ideal S1x64 .f32) :
    out0_3 (F := Ideal) x0 x1 x2
      = shapeCast S8x1568x128
          (addf (matmul (φ₁ := .f32) (φ₂ := .f32) dot_S25088x9_S9x64_S25088x64_1_0_0_1_n_n none (patchRows x0) x1 (constant S25088x64 .f32 0x00000000#32))
            (broadcastTo S25088x64 x2 broadcasts_S1x64_S25088x64))
          shapeCasts_S25088x64_S8x1568x128 := by
  unfold out0_3
  rw [View.canon_unit_zero zeros3]
  simp only [View.ld_unit_zero (S := S9x64) zeros2, View.ld_unit_zero (S := S1x64) zeros2]
  rw [show k0_pay2 (F := Ideal) x2 = x2 from shapeCast_self x2 _]
  rfl

/-- The coordinates of the two operands' indices under the product's dimension numbers: rows against rows, the
    contracted coordinate in the left operand's column and the right operand's row, columns against columns. -/
theorem lhs_row (j : S25088x64.Idx) (κ : dot_S25088x9_S9x64_S25088x64_1_0_0_1_n_n.contr.Idx) : (dot_S25088x9_S9x64_S25088x64_1_0_0_1_n_n.lhsIdx j κ 0).val = (j 0).val := by
  unfold DotDims.lhsIdx
  rw [dif_neg (show ¬(0 : Fin S25088x9.rank) ∈ dot_S25088x9_S9x64_S25088x64_1_0_0_1_n_n.lhsBatch by decide), dif_pos (show (0 : Fin S25088x9.rank) ∈ dot_S25088x9_S9x64_S25088x64_1_0_0_1_n_n.lhsNonContracting by decide)]
  rfl
theorem rhs_col (j : S25088x64.Idx) (κ : dot_S25088x9_S9x64_S25088x64_1_0_0_1_n_n.contr.Idx) : (dot_S25088x9_S9x64_S25088x64_1_0_0_1_n_n.rhsIdx j κ 1).val = (j 1).val := by
  unfold DotDims.rhsIdx
  rw [dif_neg (show ¬(1 : Fin S9x64.rank) ∈ dot_S25088x9_S9x64_S25088x64_1_0_0_1_n_n.rhsBatch by decide), dif_pos (show (1 : Fin S9x64.rank) ∈ dot_S25088x9_S9x64_S25088x64_1_0_0_1_n_n.rhsNonContracting by decide)]
  rfl

/-- THE BLOCK AT AN ENTRY: lane `l` of row `q` of image `a` holds position s = 2 q + l / 64, channel l % 64. -/
theorem block_apply (x0 : Vec Ideal S8x58x58 .f32) (x1 : Vec Ideal S9x64 .f32) (x2 : Vec Ideal S1x64 .f32)
    (a : Fin 8) (q : Fin 1568) (l : Fin 128) :
    out0_3 (F := Ideal) x0 x1 x2 (ix3 a q l)
      = (∑ k : Fin 9,
          x0 (ix3 a (⟨(2 * q.val + l.val / 64) / 56 + k.val / 3, by have := q.isLt; have := l.isLt; have := k.isLt; omega⟩ : Fin 58)
              (⟨(2 * q.val + l.val / 64) % 56 + k.val % 3, by have := k.isLt; omega⟩ : Fin 58))
            * x1 (ix2 k (⟨l.val % 64, by omega⟩ : Fin 64)))
        + x2 (ix2 (⟨0, Nat.one_pos⟩ : Fin 1) (⟨l.val % 64, by omega⟩ : Fin 64)) := by
  have ha := a.isLt; have hq := q.isLt; have hl := l.isLt
  rw [block_eq]
  refine (shapeCast_apply _ shapeCasts_S25088x64_S8x1568x128 (ix3 a q l)
    (ix2 (⟨a.val * 3136 + (2 * q.val + l.val / 64), by omega⟩ : Fin 25088) (⟨l.val % 64, by omega⟩ : Fin 64)) ?_).trans ?_
  · rw [Shape.rowMajor_val_two, Shape.rowMajor_val_three]
    show (a.val * 3136 + (2 * q.val + l.val / 64)) * 64 + l.val % 64 = (a.val * 1568 + q.val) * 128 + l.val
    omega
  · rw [addf_apply]
    refine congrArg₂ (· + ·) ?_ ?_
    · refine (Ideal.matmul_constant_zero_apply (φ₁ := .f32) (φ₂ := .f32) dot_S25088x9_S9x64_S25088x64_1_0_0_1_n_n none (patchRows x0) x1 _).trans ?_
      rw [← Equiv.sum_comp (contrEquiv1 dot_S25088x9_S9x64_S25088x64_1_0_0_1_n_n 9 rfl rfl).symm]
      refine Finset.sum_congr rfl fun k _ => ?_
      have hk := contrEquiv1_symm_val dot_S25088x9_S9x64_S25088x64_1_0_0_1_n_n 9 rfl rfl k
      have el : dot_S25088x9_S9x64_S25088x64_1_0_0_1_n_n.lhsIdx (ix2 (⟨a.val * 3136 + (2 * q.val + l.val / 64), by omega⟩ : Fin 25088) (⟨l.val % 64, by omega⟩ : Fin 64))
            ((contrEquiv1 dot_S25088x9_S9x64_S25088x64_1_0_0_1_n_n 9 rfl rfl).symm k)
          = ix2 (⟨a.val * 3136 + (2 * q.val + l.val / 64), by omega⟩ : Fin 25088) k := funext fun b => Fin.ext (by
        match b with
        | ⟨0, _⟩ => exact lhs_row _ _
        | ⟨1, _⟩ => exact (dot_S25088x9_S9x64_S25088x64_1_0_0_1_n_n.lhsIdx_val_of_single rfl _ _).trans hk)
      have er : dot_S25088x9_S9x64_S25088x64_1_0_0_1_n_n.rhsIdx (ix2 (⟨a.val * 3136 + (2 * q.val + l.val / 64), by omega⟩ : Fin 25088) (⟨l.val % 64, by omega⟩ : Fin 64))
            ((contrEquiv1 dot_S25088x9_S9x64_S25088x64_1_0_0_1_n_n 9 rfl rfl).symm k)
          = ix2 k (⟨l.val % 64, by omega⟩ : Fin 64) := funext fun b => Fin.ext (by
        match b with
        | ⟨0, _⟩ => exact (dot_S25088x9_S9x64_S25088x64_1_0_0_1_n_n.rhsIdx_val_of_single rfl _ _).trans hk
        | ⟨1, _⟩ => exact rhs_col _ _)
      rw [el, er]
      exact congrArg (· * _) (patchRows_apply x0 a (⟨2 * q.val + l.val / 64, by omega⟩ : Fin 3136) k _ rfl)
    · refine broadcastTo_apply x2 broadcasts_S1x64_S25088x64 _ _ (fun b => ?_)
      match b with
      | ⟨0, _⟩ => show 0 = if (1 : Nat) = 1 then 0 else _; rw [if_pos rfl]
      | ⟨1, _⟩ => show l.val % 64 = if (64 : Nat) = 1 then 0 else l.val % 64; rw [if_neg (by decide)]

end Cert.PatchLinear.Body

end
-- ==== Proof.Spec.lean ====
/-
  The mathematics of the certificate, with no program in sight.

  A 3×3 patch projection: every image (n, c) of a batch is zero-padded by one pixel on each side to 58 × 58, and at each
  of the 56 · 56 = 3136 output positions p = row · 56 + column the nine padded pixels under the 3 × 3 window whose
  top-left corner sits at (row, column) are contracted with a 9 × 64 weight matrix and a bias is added:

      out[n, c, p, e] = (Σ_{k < 9} pad[n, c, p / 56 + k / 3, p % 56 + k % 3] · W[k, e]) + b[e].

  `patchLinear` is that function of the padded batch, the weights and the bias. `packed` is the same numbers in another
  arrangement: the batch axes flattened to one axis of 1024 images, and two neighbouring output positions 2q, 2q + 1
  laid side by side in one row of 128 lanes (lane l holds position 2q + l / 64, channel l % 64), the bias read from a
  one-row matrix. `unpack_packed` says that regrouping `packed` row-major to [16, 64, 3136, 64] gives `patchLinear`:
  both arrangements enumerate the same (image, position, channel) triples in the same order, so the law is pure index
  arithmetic and holds for all extended-real entries, infinite ones included.
-/
import Idealize.ShloMosaic.PureOps.Ideal
import Idealize.ShloMosaic.Lib.ValueIdx
import Idealize.ShloMosaic.Lib.Pipeline.Value

noncomputable section

open scoped BigOperators

namespace Cert.PatchLinear

open Idealize.ShloMosaic Idealize.ShloMosaic.ValueIdx

/-- The padded batch [16, 64, 58, 58]. -/
abbrev SPad : Shape := ⟨4, ![16, 64, 58, 58]⟩
/-- The padded batch with its two leading axes flattened, [1024, 58, 58]. -/
abbrev SPadFlat : Shape := ⟨3, ![1024, 58, 58]⟩
/-- The weights [9, 64]. -/
abbrev SW : Shape := ⟨2, ![9, 64]⟩
/-- The bias [64] and the same as a one-row matrix [1, 64]. -/
abbrev SBias : Shape := ⟨1, ![64]⟩
abbrev SBiasRow : Shape := ⟨2, ![1, 64]⟩
/-- The result with two positions per 128-lane row, [1024, 1568, 128], and in its final arrangement [16, 64, 3136, 64]. -/
abbrev SPacked : Shape := ⟨3, ![1024, 1568, 128]⟩
abbrev SOut : Shape := ⟨4, ![16, 64, 3136, 64]⟩

/-- The padded pixel under tap `k` of the window at output position `p` of image (n, c): row p / 56 + k / 3,
    column p % 56 + k % 3. -/
def tap (n : Fin 16) (c : Fin 64) (p : Fin 3136) (k : Fin 9) : SPad.Idx :=
  ix4 n c ⟨p.val / 56 + k.val / 3, by have := p.isLt; have := k.isLt; omega⟩
    ⟨p.val % 56 + k.val % 3, by have := k.isLt; omega⟩

/-- The result: the nine taps against column `e` of the weights, plus the bias of channel `e`. -/
def patchLinear (P : SPad.Idx → EReal) (W : SW.Idx → EReal) (b : SBias.Idx → EReal) : SOut.Idx → EReal :=
  fun i => (∑ k : Fin 9, P (tap (i 0) (i 1) (i 2) k) * W (ix2 k (i 3))) + b (ix1 (i 3))

/-- The pixel of flattened image `r` under tap `k` of the window at position `s`. -/
def tapFlat (r : Fin 1024) (s : Fin 3136) (k : Fin 9) : SPadFlat.Idx :=
  ix3 r ⟨s.val / 56 + k.val / 3, by have := s.isLt; have := k.isLt; omega⟩
    ⟨s.val % 56 + k.val % 3, by have := k.isLt; omega⟩

/-- One entry of the packed arrangement: image `r`, row `q` of position pairs, lane `l`. -/
def packedAt (A : SPadFlat.Idx → EReal) (W : SW.Idx → EReal) (B : SBiasRow.Idx → EReal)
    (r : Fin 1024) (q : Fin 1568) (l : Fin 128) : EReal :=
  (∑ k : Fin 9, A (tapFlat r ⟨2 * q.val + l.val / 64, by have := q.isLt; have := l.isLt; omega⟩ k)
      * W (ix2 k ⟨l.val % 64, by omega⟩))
    + B (ix2 (⟨0, Nat.one_pos⟩ : Fin 1) (⟨l.val % 64, by omega⟩ : Fin 64))

/-- The packed arrangement as an array. -/
def packed (A : SPadFlat.Idx → EReal) (W : SW.Idx → EReal) (B : SBiasRow.Idx → EReal) : SPacked.Idx → EReal :=
  fun i => packedAt A W B (i 0) (i 1) (i 2)

/-- Regrouping the packed arrangement row-major into [16, 64, 3136, 64] — of the flattened padded batch and the
    one-row bias — is `patchLinear`: entry (n, c, p, e) sits at image n · 64 + c, row p / 2, lane (p % 2) · 64 + e,
    and that lane holds position 2 (p / 2) + p % 2 = p and channel e. -/
theorem unpack_packed (P : SPad.Idx → EReal) (W : SW.Idx → EReal) (b : SBias.Idx → EReal)
    (h1 : SPad.ShapeCasts SPadFlat) (h2 : SBias.ShapeCasts SBiasRow) (h3 : SPacked.ShapeCasts SOut) :
    shapeCast SOut (packed (shapeCast SPadFlat P h1) W (shapeCast SBiasRow b h2)) h3 = patchLinear P W b := by
  funext i
  obtain ⟨n, c, p, e, rfl⟩ : ∃ (n : Fin 16) (c : Fin 64) (p : Fin 3136) (e : Fin 64), i = ix4 n c p e :=
    ⟨i 0, i 1, i 2, i 3, eq_ix4 i⟩
  have hn := n.isLt; have hc := c.isLt; have hp := p.isLt; have he := e.isLt
  refine (shapeCast_apply _ h3 (ix4 n c p e)
    (ix3 (⟨n.val * 64 + c.val, by omega⟩ : Fin 1024) (⟨p.val / 2, by omega⟩ : Fin 1568)
      (⟨p.val % 2 * 64 + e.val, by omega⟩ : Fin 128)) ?_).trans ?_
  · rw [Shape.rowMajor_val_three, Shape.rowMajor_val_four]
    show ((n.val * 64 + c.val) * 1568 + p.val / 2) * 128 + (p.val % 2 * 64 + e.val)
      = ((n.val * 64 + c.val) * 3136 + p.val) * 64 + e.val
    omega
  · show packedAt _ W _ ⟨n.val * 64 + c.val, _⟩ ⟨p.val / 2, _⟩ ⟨p.val % 2 * 64 + e.val, _⟩
      = (∑ k : Fin 9, P (tap n c p k) * W (ix2 k e)) + b (ix1 e)
    unfold packedAt
    refine congrArg₂ (· + ·) (Finset.sum_congr rfl fun k _ => congrArg₂ (· * ·) ?_ ?_) ?_
    · have hk := k.isLt
      refine shapeCast_apply P h1 _ (tap n c p k) ?_
      rw [Shape.rowMajor_val_four, Shape.rowMajor_val_three]
      show ((n.val * 64 + c.val) * 58 + (p.val / 56 + k.val / 3)) * 58 + (p.val % 56 + k.val % 3)
        = ((n.val * 64 + c.val) * 58 + ((2 * (p.val / 2) + (p.val % 2 * 64 + e.val) / 64) / 56 + k.val / 3)) * 58
          + ((2 * (p.val / 2) + (p.val % 2 * 64 + e.val) / 64) % 56 + k.val % 3)
      have hs : 2 * (p.val / 2) + (p.val % 2 * 64 + e.val) / 64 = p.val := by omega
      rw [hs]
    · exact congrArg W (funext fun a => Fin.ext (by
        match a with
        | ⟨0, _⟩ => rfl
        | ⟨1, _⟩ => show (p.val % 2 * 64 + e.val) % 64 = e.val; omega))
    · refine shapeCast_apply b h2 _ (ix1 e) ?_
      rw [Shape.rowMajor_val_one, Shape.rowMajor_val_two]
      show e.val = 0 * 64 + (p.val % 2 * 64 + e.val) % 64
      omega

end Cert.PatchLinear

end
-- ==== Proof.KernelValue.lean ====
/-
  The idealized kernel's result array is `patchLinear` of the padded batch.

  Before the grid the host pads the batch by one zero pixel on every side of each image and flattens the two batch axes
  (16 · 64 = 1024 images), and views the bias as a one-row matrix. The grid has 128 points; point t stages images
  8 t, …, 8 t + 7 of the flattened padded batch, the whole weight matrix and the whole bias row, and writes back block t
  — images 8 t, …, 8 t + 7 — of a [1024, 1568, 128] array. By `Body.block_apply` what point t writes back is block t of
  `packed` of those three arrays (`flushed_eq`); the blocks tile the array, image r lying in block r / 8 (`covered`);
  so the array ends holding `packed` (`packed_final`). After the grid the host regroups it row-major to
  [16, 64, 3136, 64], which by `unpack_packed` is `patchLinear` of the padded batch, the weights and the bias
  (`result_eq`, `run`).
-/
import proofs.«172149_j46059229282884_2_alg».proof.Proof.Body
import proofs.«172149_j46059229282884_2_alg».proof.Proof.Spec
import Idealize.ShloMosaic.Lib.StableHlo.Run

set_option maxRecDepth 16384

noncomputable section

open scoped BigOperators

namespace Cert.PatchLinear.Kernel

open Cert.KernelIdeal Cert.KernelIdeal.Gen Idealize.ShloMosaic Idealize.ShloMosaic.TcCoe Idealize.SL.Sem
open Idealize.ShloMosaic.ValueIdx Idealize.ShloMosaic.StableHlo Cert.PatchLinear
open Idealize.ShloMosaic.Pipeline (Dat)

variable (m : (ℓ : Loc nD τ sig) → Buf (Elt Ideal) ℓ) (ρ : Dev nD → PrngReg)

/-! ## The arrays the grid finds -/

/-- The batch padded by one zero pixel on each side of every image (the zero is the integer 0 converted). -/
def padded (c : Dev nD) : S16x64x58x58.Idx → EReal :=
  pad S16x64x58x58 ![0, 0, 1, 1] ![0, 0, 1, 1] ![0, 0, 0, 0] (m ((c.tc : Thread nD τ).loc main_arg0))
    (sitofp (F := Ideal) .f32 (constantI S_ 32 0#32)) pads_S16x64x56x56_S16x64x58x58_000_000_110_110 h_S_

/-- The grid's first operand is the padded batch with its batch axes flattened. -/
theorem V_images (c : Dev nD) :
    (V m c main_v1 : S1024x58x58.Idx → EReal) = shapeCast S1024x58x58 (padded m c) shapeCasts_S16x64x58x58_S1024x58x58 := by
  dsimp only [V, V0]
  simp only [hostOps0, hostOps0_1, hostOps0_2, List.flatten_cons, List.flatten_nil, List.append_nil, List.cons_append,
    List.nil_append]
  after_results
  rfl

/-- Its third operand is the bias as a one-row matrix. -/
theorem V_biasRow (c : Dev nD) :
    (V m c main_v2 : S1x64.Idx → EReal) = shapeCast S1x64 (m ((c.tc : Thread nD τ).loc main_arg2)) shapeCasts_S64_S1x64 := by
  dsimp only [V, V0]
  simp only [hostOps0, hostOps0_1, hostOps0_2, List.flatten_cons, List.flatten_nil, List.append_nil, List.cons_append,
    List.nil_append]
  after_results
  rfl

/-! ## The blocks -/

/-- The printed index maps over the grid: point t stages block t of the images and of the result along the first axis;
    every other block index is 0. -/
theorem idx_facts : ∀ t : Fin cfg0.N,
    win0_0.index t (0 : Fin 3) = t.val ∧ win0_0.index t (1 : Fin 3) = 0 ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 3) = t.val ∧ win0_3.index t (1 : Fin 3) = 0 ∧ win0_3.index t (2 : Fin 3) = 0 :=
  (by decide +kernel : ∀ t : Fin grid0.N, _)

/-- Point t's block of images: image a of the block is image 8 t + a of the flattened padded batch. -/
theorem images_apply (c : Dev nD) (t : Fin cfg0.N) (x : S8x58x58.Idx) (k : S1024x58x58.Idx)
    (h0 : (k 0).val = t.val * 8 + (x 0).val) (h1 : (k 1).val = (x 1).val) (h2 : (k 2).val = (x 2).val) :
    (iblk m c 0 t : Vec Ideal S8x58x58 .f32) x = (V m c main_v1 : S1024x58x58.Idx → EReal) k := by
  obtain ⟨e0, e1, e2, -⟩ := idx_facts t
  show (V m c main_v1 : S1024x58x58.Idx → EReal) (((cfg0.win 0).blk t).view.emb x) = _
  refine congrArg (V m c main_v1 : S1024x58x58.Idx → EReal) (funext fun a => Fin.ext ?_)
  match a with
  | ⟨0, _⟩ => show win0_0.index t (0 : Fin 3) * 8 + 1 * (x 0).val = (k 0).val; omega
  | ⟨1, _⟩ => show win0_0.index t (1 : Fin 3) * 58 + 1 * (x 1).val = (k 1).val; omega
  | ⟨2, _⟩ => show win0_0.index t (2 : Fin 3) * 58 + 1 * (x 2).val = (k 2).val; omega

/-- Point t's block of the weights is the weight matrix. -/
theorem weights_apply (c : Dev nD) (t : Fin cfg0.N) (x : S9x64.Idx) :
    (iblk m c 1 t : Vec Ideal S9x64 .f32) x = (V m c main_arg1 : S9x64.Idx → EReal) x := by
  obtain ⟨-, -, -, e0, e1, -⟩ := idx_facts t
  show (V m c main_arg1 : S9x64.Idx → EReal) (((cfg0.win 1).blk t).view.emb x) = _
  refine congrArg (V m c main_arg1 : S9x64.Idx → EReal) (funext fun a => Fin.ext ?_)
  match a with
  | ⟨0, _⟩ => show win0_1.index t (0 : Fin 2) * 9 + 1 * (x 0).val = (x 0).val; omega
  | ⟨1, _⟩ => show win0_1.index t (1 : Fin 2) * 64 + 1 * (x 1).val = (x 1).val; omega

/-- Point t's block of the bias row is the bias row. -/
theorem biasRow_apply (c : Dev nD) (t : Fin cfg0.N) (x : S1x64.Idx) :
    (iblk m c 2 t : Vec Ideal S1x64 .f32) x = (V m c main_v2 : S1x64.Idx → EReal) x := by
  obtain ⟨-, -, -, -, -, e0, e1, -⟩ := idx_facts t
  show (V m c main_v2 : S1x64.Idx → EReal) (((cfg0.win 2).blk t).view.emb x) = _
  refine congrArg (V m c main_v2 : S1x64.Idx → EReal) (funext fun a => Fin.ext ?_)
  match a with
  | ⟨0, _⟩ => show win0_2.index t (0 : Fin 2) * 1 + 1 * (x 0).val = (x 0).val; omega
  | ⟨1, _⟩ => show win0_2.index t (1 : Fin 2) * 64 + 1 * (x 1).val = (x 1).val; omega

/-- The entries of `packed` depend on the coordinates' values only. -/
theorem packedAt_congr (A : SPadFlat.Idx → EReal) (W : SW.Idx → EReal) (B : SBiasRow.Idx → EReal)
    {r r' : Fin 1024} {q q' : Fin 1568} {l l' : Fin 128} (hr : r.val = r'.val) (hq : q.val = q'.val) (hl : l.val = l'.val) :
    packedAt A W B r q l = packedAt A W B r' q' l' := by
  obtain rfl := Fin.ext hr; obtain rfl := Fin.ext hq; obtain rfl := Fin.ext hl; rfl

/-- WHAT POINT t WRITES BACK is block t of `packed` of the flattened padded batch, the weights and the bias row. -/
theorem flushed_eq (c : Dev nD) (t : Fin cfg0.N) :
    (dats m 0 c).flushed 3 t
      = ((cfg0.win 3).blk t).view.read (Elt Ideal) (packed (V m c main_v1) (V m c main_arg1) (V m c main_v2)) := by
  show (cfg0.win 3).cut (grid0.coords t) ((dats m 0 c).after 3 t) = _
  rw [after0_3]
  obtain ⟨-, -, -, -, -, -, -, e0, e1, e2⟩ := idx_facts t
  have ht : t.val < 128 := lt_of_lt_of_eq t.isLt N_0
  funext j
  obtain ⟨a, q, l, rfl⟩ : ∃ (a : Fin 8) (q : Fin 1568) (l : Fin 128), j = ix3 a q l := ⟨j 0, j 1, j 2, eq_ix3 j⟩
  have ha := a.isLt; have hq := q.isLt; have hl := l.isLt
  refine (Body.block_apply (iblk m c 0 t) (iblk m c 1 t) (iblk m c 2 t) a q l).trans ?_
  show _ = packedAt (V m c main_v1) (V m c main_arg1) (V m c main_v2)
    (((cfg0.win 3).blk t).view.emb (ix3 a q l) 0) (((cfg0.win 3).blk t).view.emb (ix3 a q l) 1)
    (((cfg0.win 3).blk t).view.emb (ix3 a q l) 2)
  refine Eq.trans ?_ (packedAt_congr _ _ _ (r := (⟨t.val * 8 + a.val, by omega⟩ : Fin 1024)) (q := q) (l := l) ?_ ?_ ?_)
  · unfold packedAt
    refine congrArg₂ (· + ·) (Finset.sum_congr rfl fun k _ => congrArg₂ (· * ·) ?_ ?_) ?_
    · exact images_apply m c t _ _ rfl rfl rfl
    · exact weights_apply m c t _
    · exact biasRow_apply m c t _
  · show t.val * 8 + a.val = win0_3.index t (0 : Fin 3) * 8 + 1 * a.val; omega
  · show q.val = win0_3.index t (1 : Fin 3) * 1568 + 1 * q.val; omega
  · show l.val = win0_3.index t (2 : Fin 3) * 128 + 1 * l.val; omega

/-- An index of the result array is in point t's block iff each coordinate is in the block's range on its axis. -/
theorem mem_blk (t : Fin cfg0.N) (i : S1024x1568x128.Idx) :
    i ∈ ((cfg0.win 3).blk t).view.set ↔ ∀ a : Fin 3, win0_3.index t a * S8x1568x128.size a ≤ (i a).val
      ∧ (i a).val < win0_3.index t a * S8x1568x128.size a + S8x1568x128.size a := by
  show i ∈ ((View.whole main_v3).slice (win0_3.rect t)).set ↔ _
  rw [View.set_slice_whole, Rect.mem_set_unit]
  exact Iff.rfl

/-- The blocks tile the array: image r lies in the block of point r / 8. -/
theorem covered (i : S1024x1568x128.Idx) :
    ∃ t : Fin cfg0.N, (cfg0.win 3).flush t = true ∧ i ∈ ((cfg0.win 3).blk t).view.set := by
  have h0 : (i 0).val < 1024 := (i 0).isLt
  have h1 : (i 1).val < 1568 := (i 1).isLt
  have h2 : (i 2).val < 128 := (i 2).isLt
  obtain ⟨t, ht⟩ : ∃ t : Fin cfg0.N, t.val = (i 0).val / 8 :=
    ⟨⟨(i 0).val / 8, lt_of_lt_of_eq (show (i 0).val / 8 < 128 by omega) N_0.symm⟩, rfl⟩
  obtain ⟨-, -, -, -, -, -, -, e0, e1, e2⟩ := idx_facts t
  refine ⟨t, flush0_3 t, ?_⟩
  rw [mem_blk]
  intro a
  match a with
  | ⟨0, _⟩ => show win0_3.index t (0 : Fin 3) * 8 ≤ (i 0).val ∧ (i 0).val < win0_3.index t (0 : Fin 3) * 8 + 8; omega
  | ⟨1, _⟩ => show win0_3.index t (1 : Fin 3) * 1568 ≤ (i 1).val ∧ (i 1).val < win0_3.index t (1 : Fin 3) * 1568 + 1568; omega
  | ⟨2, _⟩ => show win0_3.index t (2 : Fin 3) * 128 ≤ (i 2).val ∧ (i 2).val < win0_3.index t (2 : Fin 3) * 128 + 128; omega

/-- THE RESULT OF THE GRID: the [1024, 1568, 128] array ends holding `packed`. -/
theorem packed_final (c : Dev nD) :
    (dats m 0 c).arrAt 3 cfg0.N = packed (V m c main_v1) (V m c main_arg1) (V m c main_v2) :=
  (dats m 0 c).arrAt_eq_of_cover 3 _ (fun t _ => flushed_eq m c t) covered

/-! ## After the grid -/

/-- THE KERNEL'S RESULT: the grid's array regrouped to [16, 64, 3136, 64] is `patchLinear` of the padded batch, the
    weights and the bias. -/
theorem result_eq (c : Dev nD) :
    Pipeline.afterTail₀ cfgs (dats m) 0 (V0 m) [hostOps1] c main_v4
      = patchLinear (padded m c) (m ((c.tc : Thread nD τ).loc main_arg1)) (m ((c.tc : Thread nD τ).loc main_arg2)) := by
  unfold Pipeline.afterTail₀
  show StableHlo.after hostOps1 _ (Proc.devRef .tc main_v4) = _
  after_results
  rw [(Pipeline.withArrays_arr spec0 launch0.win.arr_inj c _ _ 3).trans (packed_final m c), V_images, V_main_arg1, V_biasRow]
  exact unpack_packed _ _ _ _ _ _

/-- The run, read: every weakly fair execution of the idealized kernel terminates with its result at `patchLinear`
    of the padded batch, the weights and the bias, and its arguments unchanged. -/
theorem run : θ_run defs (onTc (τ := τ) (main (F := Ideal))) ⟨m, fun _ => 0, ρ⟩ fun r => ∀ c : Dev nD,
      r.2.mem ((c.tc : Thread nD τ).loc main_v4)
        = patchLinear (padded m c) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v4 (Pipeline.mem_restRefs_of main_v4 (by decide) (by decide))).trans (result_eq m c),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c)⟩)
    (run_main m ρ)

end Cert.PatchLinear.Kernel

end
-- ==== Proof.RefSide.lean ====
/-
  The reference program computes `patchLinear` of its own padded batch.

  The reference slices the padded batch nine times — the view shifted down by k / 3 rows and right by k % 3 columns, for
  k = 0, …, 8 —, gives each view a trailing unit axis, joins the nine along that axis, regroups the two spatial axes
  into one position axis p = row · 56 + column, contracts the joined axis with the weights and adds the bias broadcast
  over images and positions. Read at an index (n, c, p, e): entry k of the joined axis at position p is view k at
  (row, column) = (p / 56, p % 56), which is the padded pixel at (p / 56 + k / 3, p % 56 + k % 3): tap k of the window
  at p. So the contraction is the sum over the nine taps, and the whole result is `patchLinear`.
-/
import proofs.«172149_j46059229282884_2_alg».proof.Proof.Gen.ReferenceIdeal.Read
import proofs.«172149_j46059229282884_2_alg».proof.Proof.Spec

noncomputable section

open scoped BigOperators

namespace Cert.PatchLinear.Ref

open Cert.ReferenceIdeal Cert.ReferenceIdeal.Gen Cert.ReferenceIdeal.Read Idealize.ShloMosaic Idealize.ShloMosaic.ValueIdx Cert.PatchLinear

/-- The nine shifted views of the padded batch, each with its trailing unit axis, as a family over the tap. -/
def views (x0 : FVec Ideal S16x64x56x56 .f32) : Fin 9 → (S16x64x56x56x1.Idx → EReal)
  | ⟨0, _⟩ => val_main_v10 (F := Ideal) x0
  | ⟨1, _⟩ => val_main_v11 (F := Ideal) x0
  | ⟨2, _⟩ => val_main_v12 (F := Ideal) x0
  | ⟨3, _⟩ => val_main_v13 (F := Ideal) x0
  | ⟨4, _⟩ => val_main_v14 (F := Ideal) x0
  | ⟨5, _⟩ => val_main_v15 (F := Ideal) x0
  | ⟨6, _⟩ => val_main_v16 (F := Ideal) x0
  | ⟨7, _⟩ => val_main_v17 (F := Ideal) x0
  | ⟨8, _⟩ => val_main_v18 (F := Ideal) x0
  | ⟨_ + 9, h⟩ => absurd h (Nat.not_lt.2 (Nat.le_add_left _ _))

/-- The joined array is the concatenation of that family along the last axis. -/
theorem joined_eq (x0 : FVec Ideal S16x64x56x56 .f32) :
    val_main_v19 (F := Ideal) x0
      = concatenate S16x64x56x56x9 4 (List.ofFn fun n : Fin 9 => (⟨S16x64x56x56x1, views x0 n⟩ : (s : Shape) × (s.Idx → EReal)))
          concatenates_S16x64x56x56x1_S16x64x56x56x1_S16x64x56x56x1_S16x64x56x56x1_S16x64x56x56x1_S16x64x56x56x1_S16x64x56x56x1_S16x64x56x56x1_S16x64x56x56x1_S16x64x56x56x9_d4 := rfl

/-- View `k` at (n, c, row h, column w) is the padded pixel at (h + k / 3, w + k % 3). -/
theorem views_apply (x0 : FVec Ideal S16x64x56x56 .f32) (k : Fin 9) (n : Fin 16) (c : Fin 64) (h w : Fin 56) (z : Fin 1) :
    views x0 k (ix5 n c h w z)
      = val_main_v0 (F := Ideal) x0 (ix4 n c (⟨h.val + k.val / 3, by have := h.isLt; have := k.isLt; omega⟩ : Fin 58)
          (⟨w.val + k.val % 3, by have := w.isLt; have := k.isLt; omega⟩ : Fin 58)) := by
  match k with
  | ⟨0, _⟩ =>
    show val_main_v10 (F := Ideal) x0 (ix5 n c h w z) = _
    rw [val_main_v10_apply, val_main_v1_apply]
    refine congrArg (val_main_v0 (F := Ideal) x0) (funext fun a => Fin.ext ?_)
    match a with
    | ⟨0, _⟩ => rfl
    | ⟨1, _⟩ => rfl
    | ⟨2, _⟩ => show h.val = h.val + 0 / 3; omega
    | ⟨3, _⟩ => show w.val = w.val + 0 % 3; omega
  | ⟨1, _⟩ =>
    show val_main_v11 (F := Ideal) x0 (ix5 n c h w z) = _
    rw [val_main_v11_apply, val_main_v2_apply]
    refine congrArg (val_main_v0 (F := Ideal) x0) (funext fun a => Fin.ext ?_)
    match a with
    | ⟨0, _⟩ => rfl
    | ⟨1, _⟩ => rfl
    | ⟨2, _⟩ => show h.val = h.val + 1 / 3; omega
    | ⟨3, _⟩ => show 1 + w.val = w.val + 1 % 3; omega
  | ⟨2, _⟩ =>
    show val_main_v12 (F := Ideal) x0 (ix5 n c h w z) = _
    rw [val_main_v12_apply, val_main_v3_apply]
    refine congrArg (val_main_v0 (F := Ideal) x0) (funext fun a => Fin.ext ?_)
    match a with
    | ⟨0, _⟩ => rfl
    | ⟨1, _⟩ => rfl
    | ⟨2, _⟩ => show h.val = h.val + 2 / 3; omega
    | ⟨3, _⟩ => show 2 + w.val = w.val + 2 % 3; omega
  | ⟨3, _⟩ =>
    show val_main_v13 (F := Ideal) x0 (ix5 n c h w z) = _
    rw [val_main_v13_apply, val_main_v4_apply]
    refine congrArg (val_main_v0 (F := Ideal) x0) (funext fun a => Fin.ext ?_)
    match a with
    | ⟨0, _⟩ => rfl
    | ⟨1, _⟩ => rfl
    | ⟨2, _⟩ => show 1 + h.val = h.val + 3 / 3; omega
    | ⟨3, _⟩ => show w.val = w.val + 3 % 3; omega
  | ⟨4, _⟩ =>
    show val_main_v14 (F := Ideal) x0 (ix5 n c h w z) = _
    rw [val_main_v14_apply, val_main_v5_apply]
    refine congrArg (val_main_v0 (F := Ideal) x0) (funext fun a => Fin.ext ?_)
    match a with
    | ⟨0, _⟩ => rfl
    | ⟨1, _⟩ => rfl
    | ⟨2, _⟩ => show 1 + h.val = h.val + 4 / 3; omega
    | ⟨3, _⟩ => show 1 + w.val = w.val + 4 % 3; omega
  | ⟨5, _⟩ =>
    show val_main_v15 (F := Ideal) x0 (ix5 n c h w z) = _
    rw [val_main_v15_apply, val_main_v6_apply]
    refine congrArg (val_main_v0 (F := Ideal) x0) (funext fun a => Fin.ext ?_)
    match a with
    | ⟨0, _⟩ => rfl
    | ⟨1, _⟩ => rfl
    | ⟨2, _⟩ => show 1 + h.val = h.val + 5 / 3; omega
    | ⟨3, _⟩ => show 2 + w.val = w.val + 5 % 3; omega
  | ⟨6, _⟩ =>
    show val_main_v16 (F := Ideal) x0 (ix5 n c h w z) = _
    rw [val_main_v16_apply, val_main_v7_apply]
    refine congrArg (val_main_v0 (F := Ideal) x0) (funext fun a => Fin.ext ?_)
    match a with
    | ⟨0, _⟩ => rfl
    | ⟨1, _⟩ => rfl
    | ⟨2, _⟩ => show 2 + h.val = h.val + 6 / 3; omega
    | ⟨3, _⟩ => show w.val = w.val + 6 % 3; omega
  | ⟨7, _⟩ =>
    show val_main_v17 (F := Ideal) x0 (ix5 n c h w z) = _
    rw [val_main_v17_apply, val_main_v8_apply]
    refine congrArg (val_main_v0 (F := Ideal) x0) (funext fun a => Fin.ext ?_)
    match a with
    | ⟨0, _⟩ => rfl
    | ⟨1, _⟩ => rfl
    | ⟨2, _⟩ => show 2 + h.val = h.val + 7 / 3; omega
    | ⟨3, _⟩ => show 1 + w.val = w.val + 7 % 3; omega
  | ⟨8, _⟩ =>
    show val_main_v18 (F := Ideal) x0 (ix5 n c h w z) = _
    rw [val_main_v18_apply, val_main_v9_apply]
    refine congrArg (val_main_v0 (F := Ideal) x0) (funext fun a => Fin.ext ?_)
    match a with
    | ⟨0, _⟩ => rfl
    | ⟨1, _⟩ => rfl
    | ⟨2, _⟩ => show 2 + h.val = h.val + 8 / 3; omega
    | ⟨3, _⟩ => show 2 + w.val = w.val + 8 % 3; omega
  | ⟨_ + 9, hk⟩ => exact absurd hk (Nat.not_lt.2 (Nat.le_add_left _ _))

/-- The regrouped joined array at image (n, c), position p, joined coordinate k is tap k of the window at p. -/
theorem patches_apply (x0 : FVec Ideal S16x64x56x56 .f32) (n : Fin 16) (c : Fin 64) (p : Fin 3136) (k : Fin 9) :
    val_main_v20 (F := Ideal) x0 (ix4 n c p k) = val_main_v0 (F := Ideal) x0 (tap n c p k) := by
  have hn := n.isLt; have hc := c.isLt; have hp := p.isLt; have hk := k.isLt
  unfold val_main_v20
  refine (shapeCast_apply (val_main_v19 (F := Ideal) x0) shapeCasts_S16x64x56x56x9_S16x64x3136x9 (ix4 n c p k)
    (ix5 n c (⟨p.val / 56, by omega⟩ : Fin 56) (⟨p.val % 56, by omega⟩ : Fin 56) k) ?_).trans ?_
  · rw [Shape.rowMajor_val_five, Shape.rowMajor_val_four]
    show (((n.val * 64 + c.val) * 56 + p.val / 56) * 56 + p.val % 56) * 9 + k.val
      = ((n.val * 64 + c.val) * 3136 + p.val) * 9 + k.val
    omega
  · rw [joined_eq]
    refine (concatenate_ofFn_unit_apply (4 : Fin S16x64x56x56x9.rank) (views x0) _ rfl rfl
      (ix5 n c (⟨p.val / 56, by omega⟩ : Fin 56) (⟨p.val % 56, by omega⟩ : Fin 56) k) k rfl
      (ix5 n c (⟨p.val / 56, by omega⟩ : Fin 56) (⟨p.val % 56, by omega⟩ : Fin 56) (⟨0, Nat.one_pos⟩ : Fin 1))
      (fun b hb => by
        match b with
        | ⟨0, _⟩ => rfl
        | ⟨1, _⟩ => rfl
        | ⟨2, _⟩ => rfl
        | ⟨3, _⟩ => rfl
        | ⟨4, _⟩ => exact absurd rfl hb)).trans ?_
    exact views_apply x0 k n c _ _ _

/-- THE REFERENCE'S RESULT, as a function of its three arguments, is `patchLinear` of the padded batch. -/
theorem result_eq (x0 : FVec Ideal S16x64x56x56 .f32) (x1 : FVec Ideal S9x64 .f32) (x2 : FVec Ideal S64 .f32) :
    val_main_v24 (F := Ideal) x0 x1 x2 = patchLinear (val_main_v0 (F := Ideal) x0) x1 x2 := by
  funext i
  obtain ⟨n, c, p, e, rfl⟩ : ∃ (n : Fin 16) (c : Fin 64) (p : Fin 3136) (e : Fin 64), i = ix4 n c p e :=
    ⟨i 0, i 1, i 2, i 3, eq_ix4 i⟩
  rw [val_main_v24_apply, val_main_v21_apply, val_main_v23_apply, val_main_v22_apply]
  show (∑ k : Fin 9, val_main_v20 (F := Ideal) x0 (lidx_main_v21 (ix4 n c p e) k) * x1 (ridx_main_v21 (ix4 n c p e) k))
      + x2 (idx_main_v22 (idx_main_v23 (ix4 n c p e)))
    = (∑ k : Fin 9, val_main_v0 (F := Ideal) x0 (tap n c p k) * x1 (ix2 k e)) + x2 (ix1 e)
  refine congrArg₂ (· + ·) (Finset.sum_congr rfl fun k _ => congrArg₂ (· * ·) ?_ ?_) ?_
  · refine (congrArg (val_main_v20 (F := Ideal) x0) (funext fun a => Fin.ext ?_)).trans (patches_apply x0 n c p k)
    match a with
    | ⟨0, _⟩ => rfl
    | ⟨1, _⟩ => rfl
    | ⟨2, _⟩ => rfl
    | ⟨3, _⟩ => rfl
  · exact congrArg x1 (funext fun a => Fin.ext (by
      match a with
      | ⟨0, _⟩ => rfl
      | ⟨1, _⟩ => rfl))
  · exact congrArg x2 (funext fun a => Fin.ext (by
      match a with
      | ⟨0, _⟩ => rfl))

end Cert.PatchLinear.Ref

end
-- ==== Proof.lean ====
/-
  The certificate's five claims for a 3×3 patch projection (zero-pad each image by one pixel, gather the nine pixels
  under every 3 × 3 window, contract them with a 9 × 64 weight matrix, add a bias).

  Frames. The kernel, at the word level and at the extended reals, runs through its 128 grid points without a fault and
  leaves its three arguments as they were: the generated frame of each program. The reference is a straight line of
  host operations; its generated run, with the result dropped, is its frame.

  Preservation. The idealized kernel is the kernel's own text read at the extended reals: no operation was rewritten,
  and the claim is `True`.

  Equality of the results. Over the extended reals both programs end holding

      out[n, c, p, e] = (Σ_{k < 9} pad[n, c, p / 56 + k / 3, p % 56 + k % 3] · W[k, e]) + b[e],

  `patchLinear` of the padded batch, the weights and the bias — the kernel by `Kernel.run` (eight images per grid
  point, two positions per 128-lane row, regrouped by the host afterwards), the reference by `Ref.result_eq` (nine
  shifted slices joined and contracted in one product). The padded batch is the same term on both sides, and the nine
  products are added in the same order k = 0, …, 8 on both sides, so no law of arithmetic is used beyond the
  definitions of the two products as that sum: the equality holds at every extended-real input, and the finiteness
  precondition is not needed.
-/
import proofs.«172149_j46059229282884_2_alg».proof.Defs
import proofs.«172149_j46059229282884_2_alg».proof.Proof.Gen.Kernel
import proofs.«172149_j46059229282884_2_alg».proof.Proof.Gen.Kernel.Frame
import proofs.«172149_j46059229282884_2_alg».proof.Proof.Gen.KernelIdeal
import proofs.«172149_j46059229282884_2_alg».proof.Proof.Gen.KernelIdeal.Frame
import proofs.«172149_j46059229282884_2_alg».proof.Proof.Gen.ReferenceIdeal
import proofs.«172149_j46059229282884_2_alg».proof.Proof.Gen.ReferenceIdeal.Run
import proofs.«172149_j46059229282884_2_alg».proof.Proof.Gen.ReferenceIdeal.Read
import proofs.«172149_j46059229282884_2_alg».proof.Proof.Gen.Pre_finite_inputs
import proofs.«172149_j46059229282884_2_alg».proof.Proof.KernelValue
import proofs.«172149_j46059229282884_2_alg».proof.Proof.RefSide

noncomputable section

namespace Cert.Proof

open Idealize.ShloMosaic Idealize.ShloMosaic.TcCoe Idealize.SL.Sem

/-- The kernel as printed runs and keeps its arguments. -/
theorem frame_kernel : Cert.frame_Kernel := fun m ρ _ => Cert.Kernel.Gen.frame m ρ

/-- So does the kernel read at the extended reals. -/
theorem frame_ideal : Cert.frame_KernelIdeal := fun m ρ _ => Cert.KernelIdeal.Gen.frame m ρ

/-- The reference's run with its result dropped. -/
theorem frame_reference : Cert.frame_ReferenceIdeal := fun m ρ _ =>
  (θ_run Cert.ReferenceIdeal.defs _ _).mono (fun _ h c => (h c).2) (Cert.ReferenceIdeal.Value.run (F := Ideal) m ρ)

/-- Nothing was rewritten. -/
theorem preserves : Cert.preserves_Kernel_KernelIdeal := trivial

/-- Both programs end at `patchLinear` of the padded batch, the weights and the bias. -/
theorem algebraic : Cert.algebraic_KernelIdeal_ReferenceIdeal := by
  intro m ρ m' ρ' _ hagree
  refine ⟨fun c => Cert.PatchLinear.patchLinear (Cert.PatchLinear.Kernel.padded m c)
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.PatchLinear.Kernel.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v24_eq, Cert.PatchLinear.Ref.result_eq, (hagree c).1, (hagree c).2.1, (hagree c).2.2]
  rfl

theorem claim : Cert.Claim :=
  ⟨Cert.Kernel.Gen.facts, Cert.KernelIdeal.Gen.facts, Cert.ReferenceIdeal.Gen.facts, Cert.Pre_finite_inputs.Gen.facts,
    frame_kernel, frame_ideal, frame_reference, preserves, algebraic⟩

end Cert.Proof

end
